-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x2048x1024 .f32) (main_arg1 : FVec F S4x2048x1024 .f32) (main_arg2 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x2048x1024 : Shape := ⟨3, ![4, 2048, 1024]⟩
abbrev S1024x1024 : Shape := ⟨2, ![1024, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1x256x1024, .f32⟩
  | .local _ .vmem, ⟨6, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S4x2048x1024.size a
  hwx0_1 : ∀ i : grid0.Coords, EltTy.bits .f32 = 32 ∨ (Rect.block (s := S4x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x2048x1024.size a
  hwx0_3 : ∀ i : grid0.Coords, EltTy.bits .f32 = 32 ∨ (Rect.block (s := S4x2048x1024) S1x256x1024.size (cc0_transform_3 i) (hinb0_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x1024, .f32⟩
  | .hbm, ⟨3, _⟩ => ⟨S4x2048x1024, .f32⟩
  | .hbm, ⟨4, _⟩ => ⟨S4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S_, .f32⟩
  | .hbm, ⟨11, _⟩ => ⟨S4x2048, .f32⟩
  | .hbm, ⟨12, _⟩ => ⟨S4x2048, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x2048, .f32⟩
  | .hbm, ⟨21, _⟩ => ⟨S4x2048x2048, .f32⟩
  | .hbm, ⟨22, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
/-
  Cross-attention of one query row, as plain functions on the extended reals.

  For a query row `brow : Fin 1024 → EReal`, a key/value matrix `amat : Fin 2048 → Fin 1024 → EReal` (keys and values are
  the same rows) and projection weights `w : Fin 1024 → Fin 1024 → EReal`:
    proj d    = Σ_e brow e · w d e                       the projected query
    score t   = (Σ_d proj d · amat t d) · 2⁻⁵             the scaled score against key row t
    rowMax    = max_t score t  (from −∞)
    weight t  = exp (score t − rowMax)                    the unnormalised softmax weight
  and the output at feature δ in its two arrangements:
    attnK δ   = (Σ_t weight t · amat t δ) / (Σ_t weight t)        normalise AFTER the weighted sum
    attnR δ   = Σ_t (weight t / Σ_t' weight t') · amat t δ        normalise each weight BEFORE it
  The two scalars are kept as the words both programs print (0x3D000000 is 2⁻⁵, 0xFF800000 is −∞).
-/
import Idealize.ShloMosaic.PureOps.Ideal
import Idealize.ShloMosaic.PureOps.Ideal.Laws
import Idealize.ShloMosaic.Lib.ValueIdx

noncomputable section

open scoped BigOperators

namespace CrossAttn

open Idealize.ShloMosaic Idealize.ShloMosaic.ValueIdx

/-- The score scale, 1024^(−1/2) = 2⁻⁵, as the word both programs multiply by. -/
def scale : EReal := Ideal.ofBits .f32 0x3D000000#32
/-- The value the row maximum starts from: the word of −∞. -/
def negInf : EReal := Ideal.ofBits .f32 0xFF800000#32

/-- The projected query: row `brow` times the transpose of `w`. -/
def proj (brow : Fin 1024 → EReal) (w : Fin 1024 → Fin 1024 → EReal) (d : Fin 1024) : EReal :=
  ∑ e : Fin 1024, brow e * w d e

/-- The scaled score of the query row against key row `t`. -/
def score (brow : Fin 1024 → EReal) (amat : Fin 2048 → Fin 1024 → EReal) (w : Fin 1024 → Fin 1024 → EReal) (t : Fin 2048) : EReal :=
  (∑ d : Fin 1024, proj brow w d * amat t d) * scale

/-- The largest score of the row, folded from −∞. -/
def rowMax (brow : Fin 1024 → EReal) (amat : Fin 2048 → Fin 1024 → EReal) (w : Fin 1024 → Fin 1024 → EReal) : EReal :=
  (Finset.univ : Finset (Fin 2048)).fold max negInf (score brow amat w)

/-- The unnormalised softmax weight of key row `t`. -/
def weight (brow : Fin 1024 → EReal) (amat : Fin 2048 → Fin 1024 → EReal) (w : Fin 1024 → Fin 1024 → EReal) (t : Fin 2048) : EReal :=
  Ideal.exp (score brow amat w t - rowMax brow amat w)

/-- The output at feature `δ`, normalised after the weighted sum of the value rows. -/
def attnK (brow : Fin 1024 → EReal) (amat : Fin 2048 → Fin 1024 → EReal) (w : Fin 1024 → Fin 1024 → EReal) (δ : Fin 1024) : EReal :=
  Ideal.div (∑ t : Fin 2048, weight brow amat w t * amat t δ) (∑ t : Fin 2048, weight brow amat w t)

/-- The output at feature `δ`, each weight normalised before the weighted sum. -/
def attnR (brow : Fin 1024 → EReal) (amat : Fin 2048 → Fin 1024 → EReal) (w : Fin 1024 → Fin 1024 → EReal) (δ : Fin 1024) : EReal :=
  ∑ t : Fin 2048, Ideal.div (weight brow amat w t) (∑ t' : Fin 2048, weight brow amat w t') * amat t δ

/-! ## The whole arrays

`a` (keys and values) and `b` (queries) are [4, 2048, 1024], `w` is [1024, 1024]. Entry (β, σ, δ) of the result is the
cross-attention of query row (β, σ) of `b` against all 2048 rows of batch β of `a`. -/

/-- The result array with the normalisation after the weighted sum. -/
def outK (a b : (⟨3, ![4, 2048, 1024]⟩ : Shape).Idx → EReal) (w : (⟨2, ![1024, 1024]⟩ : Shape).Idx → EReal)
    (i : (⟨3, ![4, 2048, 1024]⟩ : Shape).Idx) : EReal :=
  attnK (fun e => b (ix3 (i 0) (i 1) e)) (fun t d => a (ix3 (i 0) t d)) (fun d e => w (ix2 d e)) (i 2)

/-- The result array with each weight normalised first. -/
def outR (a b : (⟨3, ![4, 2048, 1024]⟩ : Shape).Idx → EReal) (w : (⟨2, ![1024, 1024]⟩ : Shape).Idx → EReal)
    (i : (⟨3, ![4, 2048, 1024]⟩ : Shape).Idx) : EReal :=
  attnR (fun e => b (ix3 (i 0) (i 1) e)) (fun t d => a (ix3 (i 0) t d)) (fun d e => w (ix2 d e)) (i 2)

end CrossAttn

end
-- ==== Proof.Law.lean ====
/-
  The two arrangements of the softmax normalisation agree on finite inputs.

  With real inputs every score is a real number, so the row maximum M is a real number, each weight
  exp (score t − M) is a positive real, and their sum L is a positive real.  Dividing by L is then
  multiplying by the nonnegative real 1/L, and multiplication by a nonnegative real distributes over a
  finite sum of extended reals whatever the summands are.  Hence
      (Σ_t p_t · a_t) / L  =  Σ_t (p_t · a_t) · (1/L)  =  Σ_t (p_t · (1/L)) · a_t  =  Σ_t (p_t / L) · a_t.
-/
import proofs.«169724_j70952859730361_2_alg».proof.Proof.Spec
import Mathlib.Data.EReal.Operations
import Mathlib.Data.Finset.Fold

noncomputable section

open scoped BigOperators

namespace CrossAttn

open Idealize.ShloMosaic Idealize.ShloMosaic.ValueIdx

/-! ## Finite sums of reals inside the extended reals -/

/-- A finite sum of reals, taken in the extended reals, is the real sum. -/
theorem coe_sum {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A finite sum of extended reals that are all real is real. -/
theorem exists_real_sum {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← coe_sum]; exact Finset.sum_congr rfl fun i _ => hg i⟩

/-- A product of two extended reals that are real is real. -/
theorem exists_real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- Multiplication by a nonnegative real distributes over any finite sum of extended reals. -/
theorem sum_mul_coe_of_nonneg {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-! ## The normalisation law over an abstract index set -/

/-- With real weights `P i` of positive total, normalising the weighted sum of arbitrary extended reals `v i`
    afterwards equals normalising each weight first. -/
theorem div_sum_eq_sum_div {ι : Type*} (s : Finset ι) (P : ι → ℝ) (v : ι → EReal)
    (hL : 0 < ∑ i ∈ s, P i) :
    Ideal.div (∑ i ∈ s, (P i : EReal) * v i) (∑ i ∈ s, (P i : EReal))
      = ∑ i ∈ s, Ideal.div (P i : EReal) (∑ j ∈ s, (P j : EReal)) * v i := by
  have hc : (0 : ℝ) ≤ 1 / ∑ i ∈ s, P i := by positivity
  rw [coe_sum, Ideal.div_coe hL.ne', sum_mul_coe_of_nonneg _ _ hc]
  refine Finset.sum_congr rfl fun i _ => ?_
  rw [Ideal.div_coe hL.ne', mul_right_comm]

/-! ## The scalars and the scores are real -/

/-- The score scale is a real number. -/
theorem scale_real : ∃ r : ℝ, scale = (r : EReal) := by
  simp [scale, Ideal.ofBits, Ideal.ieee]
  exact ⟨_, (EReal.coe_mul _ _).symm⟩

/-- The starting value of the row maximum is −∞. -/
theorem negInf_eq_bot : negInf = ⊥ := by
  simp [negInf, Ideal.ofBits, Ideal.ieee]

/-- The maximum, folded from −∞, of real values over a nonempty index set is real: it is below +∞ because every
    value is, and above −∞ because it is at least one of the values. -/
theorem exists_real_fold_max {ι : Type*} (s : Finset ι) (hs : s.Nonempty) (f : ι → EReal)
    (h : ∀ i, ∃ r : ℝ, f i = (r : EReal)) : ∃ M : ℝ, s.fold max ⊥ f = (M : EReal) := by
  obtain ⟨i0, hi0⟩ := hs
  have htop : s.fold max ⊥ f ≠ ⊤ := by
    apply ne_of_lt
    rw [Finset.fold_max_lt]
    refine ⟨bot_lt_top, fun x _ => ?_⟩
    obtain ⟨r, hr⟩ := h x
    rw [hr]
    exact EReal.coe_lt_top r
  have hbot : s.fold max ⊥ f ≠ ⊥ := by
    apply ne_of_gt
    obtain ⟨r, hr⟩ := h i0
    refine lt_of_lt_of_le (EReal.bot_lt_coe r) ?_
    rw [Finset.le_fold_max]
    exact Or.inr ⟨i0, hi0, hr.ge⟩
  exact ⟨(s.fold max ⊥ f).toReal, (EReal.coe_toReal htop hbot).symm⟩

section Row

variable (brow : Fin 1024 → EReal) (amat : Fin 2048 → Fin 1024 → EReal) (w : Fin 1024 → Fin 1024 → EReal)

/-- With real inputs every score is real: sums and products of reals, times the real scale. -/
theorem score_real (hb : ∀ e, ∃ r : ℝ, brow e = (r : EReal)) (ha : ∀ t d, ∃ r : ℝ, amat t d = (r : EReal))
    (hw : ∀ d e, ∃ r : ℝ, w d e = (r : EReal)) (t : Fin 2048) :
    ∃ r : ℝ, score brow amat w t = (r : EReal) := by
  unfold score proj
  exact exists_real_mul
    (exists_real_sum _ _ fun d =>
      exists_real_mul (exists_real_sum _ _ fun e => exists_real_mul (hb e) (hw d e)) (ha t d))
    scale_real

/-- With real inputs the row maximum is real. -/
theorem rowMax_real (hb : ∀ e, ∃ r : ℝ, brow e = (r : EReal)) (ha : ∀ t d, ∃ r : ℝ, amat t d = (r : EReal))
    (hw : ∀ d e, ∃ r : ℝ, w d e = (r : EReal)) :
    ∃ M : ℝ, rowMax brow amat w = (M : EReal) := by
  unfold rowMax
  rw [negInf_eq_bot]
  exact exists_real_fold_max _ Finset.univ_nonempty _ (score_real brow amat w hb ha hw)

/-- With real inputs every weight is a positive real: the exponential of a real difference. -/
theorem weight_real (hb : ∀ e, ∃ r : ℝ, brow e = (r : EReal)) (ha : ∀ t d, ∃ r : ℝ, amat t d = (r : EReal))
    (hw : ∀ d e, ∃ r : ℝ, w d e = (r : EReal)) :
    ∃ P : Fin 2048 → ℝ, (∀ t, weight brow amat w t = (P t : EReal)) ∧ ∀ t, 0 < P t := by
  choose s hs using score_real brow amat w hb ha hw
  obtain ⟨M, hM⟩ := rowMax_real brow amat w hb ha hw
  refine ⟨fun t => Real.exp (s t - M), fun t => ?_, fun t => Real.exp_pos _⟩
  unfold weight
  rw [hs t, hM, ← EReal.coe_sub, Ideal.exp_coe]

/-- On finite inputs, normalising after the weighted sum of the value rows equals normalising each weight first. -/
theorem attnK_eq_attnR (hb : ∀ e, ∃ r : ℝ, brow e = (r : EReal)) (ha : ∀ t d, ∃ r : ℝ, amat t d = (r : EReal))
    (hw : ∀ d e, ∃ r : ℝ, w d e = (r : EReal)) (δ : Fin 1024) :
    attnK brow amat w δ = attnR brow amat w δ := by
  obtain ⟨P, hP, hpos⟩ := weight_real brow amat w hb ha hw
  unfold attnK attnR
  simp only [hP]
  exact div_sum_eq_sum_div Finset.univ P (fun t => amat t δ)
    (Finset.sum_pos (fun t _ => hpos t) Finset.univ_nonempty)

end Row

/-- The array-level statement: on finite inputs the two result arrays are equal, entry by entry. -/
theorem outK_eq_outR (a b : (⟨3, ![4, 2048, 1024]⟩ : Shape).Idx → EReal) (w : (⟨2, ![1024, 1024]⟩ : Shape).Idx → EReal)
    (ha : ∀ i, ∃ r : ℝ, a i = (r : EReal)) (hb : ∀ i, ∃ r : ℝ, b i = (r : EReal))
    (hw : ∀ i, ∃ r : ℝ, w i = (r : EReal)) : outK a b w = outR a b w := by
  funext i
  exact attnK_eq_attnR _ _ _ (fun e => hb _) (fun t d => ha _) (fun d e => hw _) (i 2)

end CrossAttn

end
-- ==== Proof.Finite.lean ====
/-
  The precondition says every input entry is a real number.

  The precondition is, for each of the three inputs x, the conjunction over every entry of |x| < +∞, and the three
  conjunctions and-ed together.  At the extended reals |x| is max x (−x), which is +∞ exactly at x = ±∞; so an entry that
  passes the comparison is neither −∞ nor +∞, that is, it is a real number.
-/
import proofs.«169724_j70952859730361_2_alg».proof.Defs
import proofs.«169724_j70952859730361_2_alg».proof.Proof.Gen.Pre_finite_inputs
import Idealize.ShloMosaic.Lib.ReduceAll
import Idealize.ShloMosaic.Lib.ValueIdx
import Idealize.ShloMosaic.PureOps.Ideal.Laws

open Idealize.ShloMosaic

namespace Cert.FiniteInputs

/-- The rank-0 shape has a single index. -/
instance : Subsingleton Cert.Pre_finite_inputs.S_.Idx := ⟨fun a b => funext fun d => d.elim0⟩

/-- The word the entries are compared against denotes +∞. -/
theorem inf_word : Ideal.ofBits .f32 0x7F800000#32 = ⊤ := by
  simp [Ideal.ofBits, Ideal.ieee]

/-- An extended real whose absolute value max x (−x) is strictly below +∞ is a real number: at −∞ and at +∞ the
    absolute value is +∞. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- An array all of whose entries pass the comparison |x| < +∞ has real entries. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf CmpFPredicate.olt (Host.absf x)
            (broadcastInDim s ![] hb (constant Cert.Pre_finite_inputs.S_ FTy.f32 0x7F800000#32)))
          (constantI Cert.Pre_finite_inputs.S_ 1 1#1) hr hu ValueIdx.ix0 = 1#1)
    (i : s.Idx) : ∃ r : ℝ, x i = (r : EReal) :=
  real_of_abs_lt_inf (x i) (Host.reduce_andi_all _ _ hr hu ValueIdx.ix0 e i)

/-- When the precondition holds, all three inputs have real entries. -/
theorem real_of_pre [hP : Cert.Pre_finite_inputs.Facts]
    (x0 x1 : FVec Ideal Cert.Pre_finite_inputs.S4x2048x1024 .f32) (x2 : FVec Ideal Cert.Pre_finite_inputs.S1024x1024 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 _ _ _ h0', real_of_all x1 _ _ _ h1, real_of_all x2 _ _ _ h2⟩

end Cert.FiniteInputs
-- ==== Proof.KernelOps.lean ====
/-
  The body's non-pointwise operations read at one entry, over explicit coordinates: a per-row value kept as a [256, 1]
  column and spread along its row; a block's leading unit axis dropped or added; the sum and the maximum along a row; and
  the three matrix products — queries by transposed weights, projected queries by transposed keys, weights by value rows —
  each as the sum over its contracted coordinate.
-/
import proofs.«169724_j70952859730361_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx

/-! ## Layout: a per-row value kept as a column and spread along the row -/

/-- A vector of 256 per-row values, viewed as a [256, 1] column and broadcast along `n` columns, reads the row's value. -/
theorem column_spread {α : Type} {n : Nat} (v : (⟨1, ![256]⟩ : Shape).Idx → α)
    (h1 : (⟨1, ![256]⟩ : Shape).ShapeCasts ⟨2, ![256, 1]⟩) (h2 : (⟨2, ![256, 1]⟩ : Shape).Broadcasts ⟨2, ![256, n]⟩)
    (r : Fin 256) (t : Fin n) :
    broadcastTo ⟨2, ![256, n]⟩ (shapeCast ⟨2, ![256, 1]⟩ v h1) h2 (ix2 r t) = v (ix1 r) := by
  refine (broadcastTo_apply _ h2 (ix2 r t) (ix2 r (0 : Fin 1)) ?_).trans ?_
  · intro a
    match a with
    | ⟨0, _⟩ => show r.val = if (256 : Nat) = 1 then 0 else r.val; rw [if_neg (by decide)]
    | ⟨1, _⟩ => show (0 : Nat) = if (1 : Nat) = 1 then 0 else t.val; rw [if_pos rfl]
  · refine shapeCast_apply v h1 (ix2 r (0 : Fin 1)) (ix1 r) ?_
    rw [Shape.rowMajor_val_one, Shape.rowMajor_val_two]
    show r.val = r.val * 1 + 0
    omega

/-- A [1, n0, n1] block viewed as [n0, n1] reads entry (0, p, q) at (p, q). -/
theorem drop_lead {α : Type} {n0 n1 : Nat} (v : (⟨3, ![1, n0, n1]⟩ : Shape).Idx → α)
    (h : (⟨3, ![1, n0, n1]⟩ : Shape).ShapeCasts ⟨2, ![n0, n1]⟩) (p : Fin n0) (q : Fin n1) :
    shapeCast ⟨2, ![n0, n1]⟩ v h (ix2 p q) = v (ix3 (0 : Fin 1) p q) := by
  refine shapeCast_apply v h (ix2 p q) (ix3 (0 : Fin 1) p q) ?_
  rw [Shape.rowMajor_val_three, Shape.rowMajor_val_two]
  show (0 * n0 + p.val) * n1 + q.val = p.val * n1 + q.val
  rw [Nat.zero_mul, Nat.zero_add]

/-- An [n0, n1] value stored as a [1, n0, n1] block reads (p, q) at entry (z, p, q). -/
theorem add_lead {α : Type} {n0 n1 : Nat} (v : (⟨2, ![n0, n1]⟩ : Shape).Idx → α)
    (h : (⟨2, ![n0, n1]⟩ : Shape).ShapeCasts ⟨3, ![1, n0, n1]⟩) (z : Fin 1) (p : Fin n0) (q : Fin n1) :
    shapeCast ⟨3, ![1, n0, n1]⟩ v h (ix3 z p q) = v (ix2 p q) := by
  refine shapeCast_apply v h (ix3 z p q) (ix2 p q) ?_
  rw [Shape.rowMajor_val_three, Shape.rowMajor_val_two]
  have hz : z.val = 0 := by have := z.isLt; omega
  show p.val * n1 + q.val = (z.val * n0 + p.val) * n1 + q.val
  rw [hz, Nat.zero_mul, Nat.zero_add]

/-! ## Reductions along a row -/

/-- The reduced index `r` with column `k` put back is (r, k). -/
theorem lift_row {n : Nat} (h : (⟨2, ![256, n]⟩ : Shape).Reduces [1] (⟨1, ![256]⟩ : Shape)) (r : Fin 256)
    (k : Fin ((⟨2, ![256, n]⟩ : Shape).size 1)) : h.lift (ix1 r) k = ix2 r (⟨k.val, k.isLt⟩ : Fin n) := by
  funext c; apply Fin.ext
  fin_cases c <;> rfl

/-- A row's sum: the add-reduction along the columns at row `r`. -/
theorem row_sum {n : Nat} (x : FVec Ideal ⟨2, ![256, n]⟩ .f32) (acc : BitVec 32)
    (h : (⟨2, ![256, n]⟩ : Shape).Reduces [1] (⟨1, ![256]⟩ : Shape)) (hφ : FKind.Formats .f32)
    (hacc : acc = FKind.add.neutral .f32 hφ) (r : Fin 256) :
    multiReduction .add [1] ⟨1, ![256]⟩ x acc h hφ hacc (ix1 r) = ∑ t : Fin n, x (ix2 r t) := by
  rw [Ideal.multiReduction_add_single x acc h hφ hacc (ix1 r)]
  exact Finset.sum_congr rfl fun k _ => congrArg x (lift_row h r k)

/-- A row's maximum: the max-reduction along the columns at row `r`, folded from the accumulator's value. -/
theorem row_max {n : Nat} (x : FVec Ideal ⟨2, ![256, n]⟩ .f32) (acc : BitVec 32)
    (h : (⟨2, ![256, n]⟩ : Shape).Reduces [1] (⟨1, ![256]⟩ : Shape)) (hφ : FKind.Formats .f32)
    (hacc : acc = FKind.maximumf.neutral .f32 hφ) (r : Fin 256) :
    multiReduction .maximumf [1] ⟨1, ![256]⟩ x acc h hφ hacc (ix1 r)
      = (Finset.univ : Finset (Fin n)).fold max (Ideal.ofBits .f32 acc) (fun t => x (ix2 r t)) := by
  rw [Ideal.multiReduction_maximumf_single x acc h hφ hacc (ix1 r)]
  have hf : (x ∘ h.lift (ix1 r)) = fun k : Fin n => x (ix2 r k) := funext fun k => congrArg x (lift_row h r k)
  exact congrArg (fun f => Finset.fold max (Ideal.ofBits .f32 acc) f (Finset.univ : Finset (Fin n))) hf

/-! ## The three matrix products of the body, at an entry, as sums over the contracted coordinate -/

/-- Query rows times the transposed weights: entry (r, d) sums over the input feature. -/
theorem proj_entry (x : FVec Ideal S256x1024 .bf16) (y : FVec Ideal S1024x1024 .bf16) (r : Fin 256) (d : Fin 1024) :
    matmul dot_S256x1024_S1024x1024_S256x1024_1_1_0_0_n_n none x y (constant S256x1024 .f32 0x00000000#32) (ix2 r d)
      = ∑ k : Fin 1024, x (ix2 r k) * y (ix2 d k) := by
  show FloatOps.matmul dot_S256x1024_S1024x1024_S256x1024_1_1_0_0_n_n none x y (constant S256x1024 .f32 0x00000000#32) (ix2 r d) = _
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r d) ((contrEquiv1 dot_S256x1024_S1024x1024_S256x1024_1_1_0_0_n_n 1024 rfl rfl).symm k) = ix2 r k := funext fun a => Fin.ext (by
    match a with
    | ⟨0, _⟩ =>
      show (dot_S256x1024_S1024x1024_S256x1024_1_1_0_0_n_n.lhsIdx _ _ 0).val = _
      unfold DotDims.lhsIdx
      rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
      rfl
    | ⟨1, _⟩ => exact (dot_S256x1024_S1024x1024_S256x1024_1_1_0_0_n_n.lhsIdx_val_of_single rfl _ _).trans hk)
  have er : dot_S256x1024_S1024x1024_S256x1024_1_1_0_0_n_n.rhsIdx (ix2 r d) ((contrEquiv1 dot_S256x1024_S1024x1024_S256x1024_1_1_0_0_n_n 1024 rfl rfl).symm k) = ix2 d k := funext fun a => Fin.ext (by
    match a with
    | ⟨0, _⟩ =>
      show (dot_S256x1024_S1024x1024_S256x1024_1_1_0_0_n_n.rhsIdx _ _ 0).val = _
      unfold DotDims.rhsIdx
      rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
      rfl
    | ⟨1, _⟩ => exact (dot_S256x1024_S1024x1024_S256x1024_1_1_0_0_n_n.rhsIdx_val_of_single rfl _ _).trans hk)
  rw [el, er]

/-- Projected queries times the transposed keys: entry (r, t) sums over the feature. -/
theorem score_entry (x : FVec Ideal S256x1024 .bf16) (y : FVec Ideal S2048x1024 .bf16) (r : Fin 256) (t : Fin 2048) :
    matmul dot_S256x1024_S2048x1024_S256x2048_1_1_0_0_n_n none x y (constant S256x2048 .f32 0x00000000#32) (ix2 r t)
      = ∑ k : Fin 1024, x (ix2 r k) * y (ix2 t k) := by
  show FloatOps.matmul dot_S256x1024_S2048x1024_S256x2048_1_1_0_0_n_n none x y (constant S256x2048 .f32 0x00000000#32) (ix2 r t) = _
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 r t) ((contrEquiv1 dot_S256x1024_S2048x1024_S256x2048_1_1_0_0_n_n 1024 rfl rfl).symm k) = ix2 r k := funext fun a => Fin.ext (by
    match a with
    | ⟨0, _⟩ =>
      show (dot_S256x1024_S2048x1024_S256x2048_1_1_0_0_n_n.lhsIdx _ _ 0).val = _
      unfold DotDims.lhsIdx
      rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
      rfl
    | ⟨1, _⟩ => exact (dot_S256x1024_S2048x1024_S256x2048_1_1_0_0_n_n.lhsIdx_val_of_single rfl _ _).trans hk)
  have er : dot_S256x1024_S2048x1024_S256x2048_1_1_0_0_n_n.rhsIdx (ix2 r t) ((contrEquiv1 dot_S256x1024_S2048x1024_S256x2048_1_1_0_0_n_n 1024 rfl rfl).symm k) = ix2 t k := funext fun a => Fin.ext (by
    match a with
    | ⟨0, _⟩ =>
      show (dot_S256x1024_S2048x1024_S256x2048_1_1_0_0_n_n.rhsIdx _ _ 0).val = _
      unfold DotDims.rhsIdx
      rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
      rfl
    | ⟨1, _⟩ => exact (dot_S256x1024_S2048x1024_S256x2048_1_1_0_0_n_n.rhsIdx_val_of_single rfl _ _).trans hk)
  rw [el, er]

/-- Weights times the value rows: entry (r, δ) sums over the key/value row. -/
theorem mix_entry (x : FVec Ideal S256x2048 .bf16) (y : FVec Ideal S2048x1024 .bf16) (r : Fin 256) (δ : Fin 1024) :
    matmul dot_S256x2048_S2048x1024_S256x1024_1_0_0_1_n_n none x y (constant S256x1024 .f32 0x00000000#32) (ix2 r δ)
      = ∑ k : Fin 2048, x (ix2 r k) * y (ix2 k δ) := by
  show FloatOps.matmul dot_S256x2048_S2048x1024_S256x1024_1_0_0_1_n_n none x y (constant S256x1024 .f32 0x00000000#32) (ix2 r δ) = _
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r δ) ((contrEquiv1 dot_S256x2048_S2048x1024_S256x1024_1_0_0_1_n_n 2048 rfl rfl).symm k) = ix2 r k := funext fun a => Fin.ext (by
    match a with
    | ⟨0, _⟩ =>
      show (dot_S256x2048_S2048x1024_S256x1024_1_0_0_1_n_n.lhsIdx _ _ 0).val = _
      unfold DotDims.lhsIdx
      rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
      rfl
    | ⟨1, _⟩ => exact (dot_S256x2048_S2048x1024_S256x1024_1_0_0_1_n_n.lhsIdx_val_of_single rfl _ _).trans hk)
  have er : dot_S256x2048_S2048x1024_S256x1024_1_0_0_1_n_n.rhsIdx (ix2 r δ) ((contrEquiv1 dot_S256x2048_S2048x1024_S256x1024_1_0_0_1_n_n 2048 rfl rfl).symm k) = ix2 k δ := funext fun a => Fin.ext (by
    match a with
    | ⟨0, _⟩ => exact (dot_S256x2048_S2048x1024_S256x1024_1_0_0_1_n_n.rhsIdx_val_of_single rfl _ _).trans hk
    | ⟨1, _⟩ =>
      show (dot_S256x2048_S2048x1024_S256x1024_1_0_0_1_n_n.rhsIdx _ _ 1).val = _
      unfold DotDims.rhsIdx
      rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
      rfl)
  rw [el, er]

end Cert.KernelIdeal.RowValue

end
-- ==== Proof.KernelRow.lean ====
/-
  The kernel body's stored value at one entry of its output block is the cross-attention of that block row
  (normalised after the weighted sum): `CrossAttn.attnK` of row `r` of the query block, the key/value block and the weights.

  The body's value is read through two named intermediate blocks: the [256, 2048] block of scaled scores and the
  [256, 2048] block of unnormalised softmax weights. The stored block is the weights times the value rows, divided row by
  row by the weights' row sums.
-/
import proofs.«169724_j70952859730361_2_alg».proof.Proof.KernelOps
import proofs.«169724_j70952859730361_2_alg».proof.Proof.Spec

noncomputable section

namespace Cert.KernelIdeal.RowValue

open Cert.KernelIdeal Cert.KernelIdeal.Gen Idealize.ShloMosaic Idealize.ShloMosaic.ValueIdx

variable (x0 : Vec Ideal S1x256x1024 .f32) (x2 : Vec Ideal S1024x1024 .f32) (x1 : Vec Ideal S1x2048x1024 .f32)

/-- The block of projected queries: query rows times the transposed weights. -/
def projVec : FVec Ideal S256x1024 .f32 :=
  matmul dot_S256x1024_S1024x1024_S256x1024_1_1_0_0_n_n none
    (truncf .bf16 (shapeCast S256x1024 x0 shapeCasts_S1x256x1024_S256x1024) bitsLt_bf16_f32)
    (truncf .bf16 x2 bitsLt_bf16_f32) (constant S256x1024 .f32 0x00000000#32)

/-- The block of scaled scores: projected queries times the transposed keys, times 2⁻⁵. -/
def scoreVec : FVec Ideal S256x2048 .f32 :=
  mulf (matmul dot_S256x1024_S2048x1024_S256x2048_1_1_0_0_n_n none (truncf .bf16 (projVec x0 x2) bitsLt_bf16_f32)
      (truncf .bf16 (shapeCast S2048x1024 x1 shapeCasts_S1x2048x1024_S2048x1024) bitsLt_bf16_f32)
      (constant S256x2048 .f32 0x00000000#32))
    (broadcast S256x2048 (Scalar.ofBits .f32 0x3D000000#32))

/-- The row maxima of the scores, from −∞. -/
def maxVec : FVec Ideal S256 .f32 :=
  multiReduction .maximumf [1] S256 (scoreVec x0 x2 x1) 0xFF800000#32 reduces_S256x2048_S256 (.inl rfl) rfl

/-- The block of unnormalised softmax weights: exp of each score minus its row's maximum. -/
def weightVec : FVec Ideal S256x2048 .f32 :=
  exp (subf (scoreVec x0 x2 x1)
    (broadcastTo S256x2048 (shapeCast S256x1 (maxVec x0 x2 x1) shapeCasts_S256_S256x1) broadcasts_S256x1_S256x2048))

/-- The row sums of the weights, from zero. -/
def sumVec : FVec Ideal S256 .f32 :=
  multiReduction .add [1] S256 (weightVec x0 x2 x1) 0x00000000#32 reduces_S256x2048_S256 (.inl rfl) rfl

/-- The stored block: weights times value rows, divided row by row by the weights' sums. -/
theorem pay_eq : k0_pay1 (F := Ideal) x0 x2 x1
    = shapeCast S1x256x1024
        (divf (matmul dot_S256x2048_S2048x1024_S256x1024_1_0_0_1_n_n none (truncf .bf16 (weightVec x0 x2 x1) bitsLt_bf16_f32)
            (truncf .bf16 (shapeCast S2048x1024 x1 shapeCasts_S1x2048x1024_S2048x1024) bitsLt_bf16_f32)
            (constant S256x1024 .f32 0x00000000#32))
          (broadcastTo S256x1024 (shapeCast S256x1 (sumVec x0 x2 x1) shapeCasts_S256_S256x1) broadcasts_S256x1_S256x1024))
        shapeCasts_S256x1024_S1x256x1024 := rfl

/-- Entry (r, d) of the projected queries. -/
theorem projVec_apply (r : Fin 256) (d : Fin 1024) :
    projVec x0 x2 (ix2 r d) = CrossAttn.proj (fun e => x0 (ix3 0 r e)) (fun d e => x2 (ix2 d e)) d := by
  unfold projVec CrossAttn.proj
  refine (proj_entry _ _ r d).trans (Finset.sum_congr rfl fun k _ => ?_)
  exact congrArg (· * x2 (ix2 d k)) (drop_lead x0 shapeCasts_S1x256x1024_S256x1024 r k)

/-- Entry (r, t) of the scaled scores. -/
theorem scoreVec_apply (r : Fin 256) (t : Fin 2048) :
    scoreVec x0 x2 x1 (ix2 r t)
      = CrossAttn.score (fun e => x0 (ix3 0 r e)) (fun t d => x1 (ix3 0 t d)) (fun d e => x2 (ix2 d e)) t := by
  unfold scoreVec CrossAttn.score CrossAttn.scale
  refine congrArg (· * Ideal.ofBits .f32 0x3D000000#32) ((score_entry _ _ r t).trans (Finset.sum_congr rfl fun k _ => ?_))
  exact congrArg₂ (· * ·) (projVec_apply x0 x2 r k) (drop_lead x1 shapeCasts_S1x2048x1024_S2048x1024 t k)

/-- The maximum of row `r` of the scores. -/
theorem maxVec_apply (r : Fin 256) :
    maxVec x0 x2 x1 (ix1 r)
      = CrossAttn.rowMax (fun e => x0 (ix3 0 r e)) (fun t d => x1 (ix3 0 t d)) (fun d e => x2 (ix2 d e)) := by
  unfold maxVec CrossAttn.rowMax CrossAttn.negInf
  refine (row_max (scoreVec x0 x2 x1) 0xFF800000#32 reduces_S256x2048_S256 (.inl rfl) rfl r).trans ?_
  exact congrArg (fun f => Finset.fold max (Ideal.ofBits .f32 0xFF800000#32) f (Finset.univ : Finset (Fin 2048)))
    (funext fun t => scoreVec_apply x0 x2 x1 r t)

/-- Entry (r, t) of the unnormalised weights. -/
theorem weightVec_apply (r : Fin 256) (t : Fin 2048) :
    weightVec x0 x2 x1 (ix2 r t)
      = CrossAttn.weight (fun e => x0 (ix3 0 r e)) (fun t d => x1 (ix3 0 t d)) (fun d e => x2 (ix2 d e)) t := by
  unfold weightVec CrossAttn.weight
  show Ideal.exp (scoreVec x0 x2 x1 (ix2 r t)
      - broadcastTo S256x2048 (shapeCast S256x1 (maxVec x0 x2 x1) shapeCasts_S256_S256x1) broadcasts_S256x1_S256x2048 (ix2 r t)) = _
  rw [column_spread (maxVec x0 x2 x1) shapeCasts_S256_S256x1 broadcasts_S256x1_S256x2048 r t, scoreVec_apply, maxVec_apply]

/-- The sum of row `r` of the weights. -/
theorem sumVec_apply (r : Fin 256) :
    sumVec x0 x2 x1 (ix1 r)
      = ∑ t : Fin 2048, CrossAttn.weight (fun e => x0 (ix3 0 r e)) (fun t d => x1 (ix3 0 t d)) (fun d e => x2 (ix2 d e)) t := by
  unfold sumVec
  refine (row_sum (weightVec x0 x2 x1) 0x00000000#32 reduces_S256x2048_S256 (.inl rfl) rfl r).trans ?_
  exact Finset.sum_congr rfl fun t _ => weightVec_apply x0 x2 x1 r t

/-- Entry (0, r, δ) of the stored block: query row `r` attends over the 2048 key/value rows of the block. -/
theorem pay_row (z : Fin 1) (r : Fin 256) (δ : Fin 1024) :
    k0_pay1 (F := Ideal) x0 x2 x1 (ix3 z r δ)
      = CrossAttn.attnK (fun e => x0 (ix3 0 r e)) (fun t d => x1 (ix3 0 t d)) (fun d e => x2 (ix2 d e)) δ := by
  rw [pay_eq]
  refine (add_lead _ shapeCasts_S256x1024_S1x256x1024 z r δ).trans ?_
  unfold CrossAttn.attnK
  refine congrArg₂ Ideal.div ((mix_entry _ _ r δ).trans (Finset.sum_congr rfl fun t _ => ?_)) ?_
  · exact congrArg₂ (· * ·) (weightVec_apply x0 x2 x1 r t) (drop_lead x1 shapeCasts_S1x2048x1024_S2048x1024 t δ)
  · exact (column_spread (sumVec x0 x2 x1) shapeCasts_S256_S256x1 broadcasts_S256x1_S256x1024 r δ).trans (sumVec_apply x0 x2 x1 r)

end Cert.KernelIdeal.RowValue

end
-- ==== Proof.Blocks.lean ====
/-
  From the blocks the grid points write to the whole result array.

  The grid is 4 × 8. The point with coordinates (β, κ) reads the query block of batch β, rows 256κ … 256κ + 255, all
  2048 key/value rows of batch β and the whole weight matrix, and writes rows 256κ … 256κ + 255 of batch β of the result.
  Row `r` of what it writes is the cross-attention (normalised after the weighted sum) of query row 256κ + r of batch β
  against the key/value rows of batch β: entry (β, 256κ + r, δ) of `CrossAttn.outK`. The 32 blocks tile the result
  array (row σ of batch β lies in the block of the point (β, σ / 256)), so the array ends holding `CrossAttn.outK` of
  the three argument arrays.
-/
import proofs.«169724_j70952859730361_2_alg».proof.Proof.Gen.KernelIdeal.Value
import proofs.«169724_j70952859730361_2_alg».proof.Proof.Spec
import proofs.«169724_j70952859730361_2_alg».proof.Proof.KernelRow
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-! ## Where each window's block sits, against the result's block -/

/-- The block indices, decided over the 32 grid points: the query block has the result block's batch and row-block
    index; the key/value block has its batch and is the whole of that batch; the weight block is the whole matrix; the
    result block spans all 1024 features, its batch index is at most 3 and its row-block index at most 7. -/
theorem block_indices : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 2) = 0
    ∧ win0_2.index t (1 : Fin 2) = 0
    ∧ win0_3.index t (2 : Fin 3) = 0
    ∧ win0_3.index t (0 : Fin 3) ≤ 3
    ∧ win0_3.index t (1 : Fin 3) ≤ 7 :=
  (by decide +kernel : ∀ t : Fin grid0.N, _)

/-- Every (batch, row block) pair is some grid point's result block. -/
theorem block_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-! ## The three input blocks as reads of the argument arrays -/

/-- Entry `x` of the query block at point `t` is entry `k` of the query array, when `k` is `x` moved to the block's place. -/
theorem query_block (c : Dev nD) (t : Fin cfg0.N) (x : S1x256x1024.Idx) (k : S4x2048x1024.Idx)
    (h0 : (k 0).val = win0_0.index t (0 : Fin 3) * 1 + 1 * (x 0).val)
    (h1 : (k 1).val = win0_0.index t (1 : Fin 3) * 256 + 1 * (x 1).val)
    (h2 : (k 2).val = win0_0.index t (2 : Fin 3) * 1024 + 1 * (x 2).val) :
    (iblk m c 0 t : Vec Ideal S1x256x1024 .f32) x = (V m c main_arg1 : S4x2048x1024.Idx → EReal) k := by
  show V m c main_arg1 (((cfg0.win 0).blk t).view.emb x) = V m c main_arg1 k
  congr 1
  funext a
  apply Fin.ext
  match a with
  | ⟨0, _⟩ => show win0_0.index t (0 : Fin 3) * 1 + 1 * (x 0).val = (k 0).val; omega
  | ⟨1, _⟩ => show win0_0.index t (1 : Fin 3) * 256 + 1 * (x 1).val = (k 1).val; omega
  | ⟨2, _⟩ => show win0_0.index t (2 : Fin 3) * 1024 + 1 * (x 2).val = (k 2).val; omega

/-- Entry `x` of the key/value block at point `t` is entry `k` of the key/value array. -/
theorem keys_block (c : Dev nD) (t : Fin cfg0.N) (x : S1x2048x1024.Idx) (k : S4x2048x1024.Idx)
    (h0 : (k 0).val = win0_1.index t (0 : Fin 3) * 1 + 1 * (x 0).val)
    (h1 : (k 1).val = win0_1.index t (1 : Fin 3) * 2048 + 1 * (x 1).val)
    (h2 : (k 2).val = win0_1.index t (2 : Fin 3) * 1024 + 1 * (x 2).val) :
    (iblk m c 1 t : Vec Ideal S1x2048x1024 .f32) x = (V m c main_arg0 : S4x2048x1024.Idx → EReal) k := by
  show V m c main_arg0 (((cfg0.win 1).blk t).view.emb x) = V m c main_arg0 k
  congr 1
  funext a
  apply Fin.ext
  match a with
  | ⟨0, _⟩ => show win0_1.index t (0 : Fin 3) * 1 + 1 * (x 0).val = (k 0).val; omega
  | ⟨1, _⟩ => show win0_1.index t (1 : Fin 3) * 2048 + 1 * (x 1).val = (k 1).val; omega
  | ⟨2, _⟩ => show win0_1.index t (2 : Fin 3) * 1024 + 1 * (x 2).val = (k 2).val; omega

/-- Entry `x` of the weight block at point `t` is entry `k` of the weight matrix. -/
theorem weights_block (c : Dev nD) (t : Fin cfg0.N) (x : S1024x1024.Idx) (k : S1024x1024.Idx)
    (h0 : (k 0).val = win0_2.index t (0 : Fin 2) * 1024 + 1 * (x 0).val)
    (h1 : (k 1).val = win0_2.index t (1 : Fin 2) * 1024 + 1 * (x 1).val) :
    (iblk m c 2 t : Vec Ideal S1024x1024 .f32) x = (V m c main_arg2 : S1024x1024.Idx → EReal) k := by
  show V m c main_arg2 (((cfg0.win 2).blk t).view.emb x) = V m c main_arg2 k
  congr 1
  funext a
  apply Fin.ext
  match a with
  | ⟨0, _⟩ => show win0_2.index t (0 : Fin 2) * 1024 + 1 * (x 0).val = (k 0).val; omega
  | ⟨1, _⟩ => show win0_2.index t (1 : Fin 2) * 1024 + 1 * (x 1).val = (k 1).val; omega

/-! ## One entry of a written block -/

/-- An entry of the stored block is the whole-array cross-attention at index `i`, as soon as the three blocks the body
    loaded are the rows of the argument arrays that `i` names: query row (i 0, i 1), the key/value rows of batch i 0,
    the whole weight matrix, and feature i 2. -/
theorem block_entry (A B : S4x2048x1024.Idx → EReal) (W : S1024x1024.Idx → EReal)
    (x0 : Vec Ideal S1x256x1024 .f32) (x1 : Vec Ideal S1x2048x1024 .f32) (x2 : Vec Ideal S1024x1024 .f32)
    (y : S1x256x1024.Idx) (i : S4x2048x1024.Idx)
    (hq : ∀ e : Fin 1024, x0 (ix3 0 (y 1) e) = B (ix3 (i 0) (i 1) e))
    (hk : ∀ (s : Fin 2048) (d : Fin 1024), x1 (ix3 0 s d) = A (ix3 (i 0) s d))
    (hw : ∀ d e : Fin 1024, x2 (ix2 d e) = W (ix2 d e))
    (hf : i 2 = y 2) :
    k0_pay1 (F := Ideal) x0 x2 x1 y = CrossAttn.outK A B W i := by
  have hy : y = ix3 (y 0) (y 1) (y 2) := eq_ix3 y
  have eq : (fun e : Fin 1024 => x0 (ix3 0 (y 1) e)) = fun e => B (ix3 (i 0) (i 1) e) := funext hq
  have ek : (fun (s : Fin 2048) (d : Fin 1024) => x1 (ix3 0 s d)) = fun s d => A (ix3 (i 0) s d) :=
    funext fun s => funext (hk s)
  have ew : (fun d e : Fin 1024 => x2 (ix2 d e)) = fun d e => W (ix2 d e) := funext fun d => funext (hw d)
  calc k0_pay1 (F := Ideal) x0 x2 x1 y
      = k0_pay1 (F := Ideal) x0 x2 x1 (ix3 (y 0) (y 1) (y 2)) := congrArg _ hy
    _ = CrossAttn.attnK (fun e => x0 (ix3 0 (y 1) e)) (fun s d => x1 (ix3 0 s d)) (fun d e => x2 (ix2 d e)) (y 2) :=
        RowValue.pay_row x0 x2 x1 (y 0) (y 1) (y 2)
    _ = CrossAttn.outK A B W i := by
        unfold CrossAttn.outK
        rw [eq, ek, ew, hf]

/-! ## What a grid point writes back -/

/-- What point `t` writes back is block `t` of `CrossAttn.outK` of the argument arrays as the region finds them. -/
theorem flushed_eq (c : Dev nD) (t : Fin cfg0.N) :
    (dats m 0 c).flushed 3 t
      = ((cfg0.win 3).blk t).view.read (Elt Ideal) (CrossAttn.outK (V m c main_arg0) (V m c main_arg1) (V m c main_arg2)) := by
  rw [Value.flushed3]
  unfold out0_3
  rw [View.canon_unit_zero zero3]
  simp only [View.ld_unit_zero (S := S1x256x1024) zero3, View.ld_unit_zero (S := S1x2048x1024) zero3,
    View.ld_unit_zero (S := S1024x1024) zero2]
  obtain ⟨e00, e01, e02, e10, e11, e12, e20, e21, e32, -, -⟩ := block_indices t
  funext y
  show k0_pay1 (F := Ideal) (iblk m c 0 t) (iblk m c 2 t) (iblk m c 1 t) y
    = CrossAttn.outK (V m c main_arg0) (V m c main_arg1) (V m c main_arg2) (((cfg0.win 3).blk t).view.emb y)
  have hy0 : (y 0).val < 1 := (y 0).isLt
  have i0 : ((((cfg0.win 3).blk t).view.emb y) 0).val = win0_3.index t (0 : Fin 3) * 1 + 1 * (y 0).val := rfl
  have i1 : ((((cfg0.win 3).blk t).view.emb y) 1).val = win0_3.index t (1 : Fin 3) * 256 + 1 * (y 1).val := rfl
  have i2 : ((((cfg0.win 3).blk t).view.emb y) 2).val = win0_3.index t (2 : Fin 3) * 1024 + 1 * (y 2).val := rfl
  refine block_entry (V m c main_arg0) (V m c main_arg1) (V m c main_arg2) (iblk m c 0 t) (iblk m c 1 t) (iblk m c 2 t) y
    (((cfg0.win 3).blk t).view.emb y) (fun e => ?_) (fun s d => ?_) (fun d e => ?_) ?_
  · refine query_block m c t _ _ ?_ ?_ ?_
    · show ((((cfg0.win 3).blk t).view.emb y) 0).val = win0_0.index t (0 : Fin 3) * 1 + 1 * 0; omega
    · show ((((cfg0.win 3).blk t).view.emb y) 1).val = win0_0.index t (1 : Fin 3) * 256 + 1 * (y 1).val; omega
    · show e.val = win0_0.index t (2 : Fin 3) * 1024 + 1 * e.val; omega
  · refine keys_block m c t _ _ ?_ ?_ ?_
    · show ((((cfg0.win 3).blk t).view.emb y) 0).val = win0_1.index t (0 : Fin 3) * 1 + 1 * 0; omega
    · show s.val = win0_1.index t (1 : Fin 3) * 2048 + 1 * s.val; omega
    · show d.val = win0_1.index t (2 : Fin 3) * 1024 + 1 * d.val; omega
  · refine weights_block m c t _ _ ?_ ?_
    · show d.val = win0_2.index t (0 : Fin 2) * 1024 + 1 * d.val; omega
    · show e.val = win0_2.index t (1 : Fin 2) * 1024 + 1 * e.val; omega
  · apply Fin.ext
    show ((((cfg0.win 3).blk t).view.emb y) 2).val = (y 2).val
    omega

/-! ## The blocks tile the array -/

/-- An index of the result array is in point `t`'s block iff each coordinate is in the block's range on its axis. -/
theorem mem_blk (t : Fin cfg0.N) (i : S4x2048x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v0).slice (win0_3.rect t)).set ↔ _
  rw [View.set_slice_whole, Rect.mem_set_unit]
  exact Iff.rfl

/-- Row σ of batch β is in the block of the point with coordinates (β, σ / 256). -/
theorem cover (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := block_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-! ## The whole array, and the run -/

/-- The result array after the run is `CrossAttn.outK` of the argument arrays. -/
theorem final (c : Dev nD) :
    (dats m 0 c).arrAt 3 cfg0.N = CrossAttn.outK (V m c main_arg0) (V m c main_arg1) (V m c main_arg2) :=
  (dats m 0 c).arrAt_eq_of_cover 3 (CrossAttn.outK (V m c main_arg0) (V m c main_arg1) (V m c main_arg2))
    (fun t _ => flushed_eq m c t) cover

/-- The run, read: the result array at `CrossAttn.outK` of the arguments, the arguments unchanged. -/
theorem run : θ_run defs (onTc (τ := τ) (main (F := Ideal))) ⟨m, fun _ => 0, ρ⟩ fun r => ∀ c : Dev nD,
      r.2.mem ((c : Thread nD τ).loc main_v0)
        = CrossAttn.outK (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.RefRow.lean ====
/-
  The reference's result at entry (β, σ, δ) is the cross-attention of query row (β, σ) against batch β's key/value rows with
  each softmax weight normalised before the weighted sum: `CrossAttn.attnR`. Read one stage at a time: the projection,
  the scaled scores, the row maximum (a max-reduction from −∞, then a maximum with −∞ again, which changes nothing), the
  exponentials, their row sum (from zero), the quotient, and the last product with the value rows.
-/
import proofs.«169724_j70952859730361_2_alg».proof.Proof.Gen.ReferenceIdeal.Read
import proofs.«169724_j70952859730361_2_alg».proof.Proof.Spec
import Idealize.ShloMosaic.Lib.ValueIdx
import Idealize.ShloMosaic.PureOps.Ideal.Laws
import Idealize.ShloMosaic.PureOps.Reduce

noncomputable section

namespace Cert.ReferenceIdeal.RowValue

open Cert.ReferenceIdeal Cert.ReferenceIdeal.Gen Cert.ReferenceIdeal.Read Idealize.ShloMosaic Idealize.ShloMosaic.ValueIdx

variable (a b : FVec Ideal S4x2048x1024 .f32) (w : FVec Ideal S1024x1024 .f32)

/-- The word of −∞ is the bottom of the extended reals. -/
theorem negInf_eq_bot : CrossAttn.negInf = (⊥ : EReal) := by
  simp [CrossAttn.negInf, Ideal.ofBits, Ideal.ieee]

/-- The first product at (β, σ, d): the projected query. -/
theorem proj_at (β : Fin 4) (σ : Fin 2048) (d : Fin 1024) :
    val_main_v0 (F := Ideal) b w (ix3 β σ d) = CrossAttn.proj (fun e => b (ix3 β σ e)) (fun d e => w (ix2 d e)) d := by
  rw [val_main_v0_apply]
  unfold CrossAttn.proj
  refine Finset.sum_congr rfl fun k _ => ?_
  have e1 : lidx_main_v0 (ix3 β σ d) k = ix3 β σ k := funext fun c => by
    match c with | ⟨0, _⟩ => rfl | ⟨1, _⟩ => rfl | ⟨2, _⟩ => rfl
  have e2 : ridx_main_v0 (ix3 β σ d) k = ix2 d k := funext fun c => by
    match c with | ⟨0, _⟩ => rfl | ⟨1, _⟩ => rfl
  rw [e1, e2]

/-- The scaled score of query row (β, σ) against key row `t`. -/
theorem score_at (β : Fin 4) (σ : Fin 2048) (t : Fin 2048) :
    val_main_v3 (F := Ideal) a b w (ix3 β σ t)
      = CrossAttn.score (fun e => b (ix3 β σ e)) (fun t d => a (ix3 β t d)) (fun d e => w (ix2 d e)) t := by
  rw [val_main_v3_apply, val_main_v1_apply, val_main_v2_apply, val_main_cst_apply]
  unfold CrossAttn.score CrossAttn.scale
  show (∑ k : Fin 1024, _) * Ideal.ofBits .f32 0x3D000000#32 = _
  refine congrArg (· * Ideal.ofBits .f32 0x3D000000#32) (Finset.sum_congr rfl fun k _ => ?_)
  have e1 : lidx_main_v1 (ix3 β σ t) k = ix3 β σ k := funext fun c => by
    match c with | ⟨0, _⟩ => rfl | ⟨1, _⟩ => rfl | ⟨2, _⟩ => rfl
  have e2 : ridx_main_v1 (ix3 β σ t) k = ix3 β t k := funext fun c => by
    match c with | ⟨0, _⟩ => rfl | ⟨1, _⟩ => rfl | ⟨2, _⟩ => rfl
  rw [e1, e2, proj_at]

/-- The reduced index (β, σ) with key row `k` put back is (β, σ, k). -/
theorem lift_keys (h : S4x2048x2048.Reduces [2] S4x2048) (β : Fin 4) (σ : Fin 2048) (k : Fin (S4x2048x2048.size 2)) :
    h.lift (ix2 β σ) k = ix3 β σ (⟨k.val, k.isLt⟩ : Fin 2048) := by
  funext c; apply Fin.ext
  fin_cases c <;> rfl

/-- The row maximum at (β, σ): the max-reduction from −∞ over the key rows, then the maximum with −∞. -/
theorem rowMax_at (β : Fin 4) (σ : Fin 2048) :
    val_main_v6 (F := Ideal) a b w (ix2 β σ)
      = CrossAttn.rowMax (fun e => b (ix3 β σ e)) (fun t d => a (ix3 β t d)) (fun d e => w (ix2 d e)) := by
  have h : S4x2048x2048.Reduces [2] S4x2048 := by decide
  rw [val_main_v6_apply, val_main_v5_apply, val_main_cst_1_apply]
  unfold val_main_v4
  refine (congrArg (FloatOps.maximumf (F := Ideal) (φ := .f32) (FloatOps.ofBits .f32 0xFF800000#32))
    (Host.reduce_eq_fold_single (FloatOps.maximumf (F := Ideal) (φ := .f32)) (val_main_v3 (F := Ideal) a b w)
      (val_main_cst_0 (F := Ideal)) reducesTo_S4x2048x2048_S4x2048_d2 h h_S_ (ix2 β σ))).trans ?_
  have hf : (val_main_v3 (F := Ideal) a b w ∘ h.lift (ix2 β σ))
      = CrossAttn.score (fun e => b (ix3 β σ e)) (fun t d => a (ix3 β t d)) (fun d e => w (ix2 d e)) :=
    funext fun k => (congrArg (val_main_v3 (F := Ideal) a b w) (lift_keys h β σ k)).trans (score_at a b w β σ _)
  unfold CrossAttn.rowMax
  show max (Ideal.ofBits .f32 0xFF800000#32)
      ((Finset.univ : Finset (Fin 2048)).fold max (Ideal.ofBits .f32 0xFF800000#32) (val_main_v3 (F := Ideal) a b w ∘ h.lift (ix2 β σ))) = _
  rw [hf]
  have hb : Ideal.ofBits .f32 0xFF800000#32 = (⊥ : EReal) := negInf_eq_bot
  show max (Ideal.ofBits .f32 0xFF800000#32) (Finset.fold max CrossAttn.negInf _ _) = Finset.fold max CrossAttn.negInf _ _
  rw [hb]
  exact max_eq_right bot_le

/-- The unnormalised softmax weight at (β, σ, t). -/
theorem weight_at (β : Fin 4) (σ : Fin 2048) (t : Fin 2048) :
    val_main_v10 (F := Ideal) a b w (ix3 β σ t)
      = CrossAttn.weight (fun e => b (ix3 β σ e)) (fun t d => a (ix3 β t d)) (fun d e => w (ix2 d e)) t := by
  rw [val_main_v10_apply, val_main_v9_apply, val_main_v8_apply, val_main_v7_apply]
  have e1 : idx_main_v7 (idx_main_v8 (ix3 β σ t)) = ix2 β σ := funext fun c => by
    match c with | ⟨0, _⟩ => rfl | ⟨1, _⟩ => rfl
  rw [e1, rowMax_at, score_at]
  rfl

/-- The row sum of the weights at (β, σ), from zero. -/
theorem weightSum_at (β : Fin 4) (σ : Fin 2048) :
    val_main_v11 (F := Ideal) a b w (ix2 β σ)
      = ∑ t : Fin 2048, CrossAttn.weight (fun e => b (ix3 β σ e)) (fun t d => a (ix3 β t d)) (fun d e => w (ix2 d e)) t := by
  rw [val_main_v11_apply, val_main_cst_2_apply]
  show Ideal.ofBits .f32 0x00000000#32 + _ = _
  rw [Ideal.ofBits_zero_f32, zero_add]
  refine Finset.sum_congr rfl fun k _ => ?_
  have e1 : idx_main_v11 (ix2 β σ) k = ix3 β σ k := funext fun c => by
    match c with | ⟨0, _⟩ => rfl | ⟨1, _⟩ => rfl | ⟨2, _⟩ => rfl
  rw [e1, weight_at]

/-- The normalised weight at (β, σ, t). -/
theorem normWeight_at (β : Fin 4) (σ : Fin 2048) (t : Fin 2048) :
    val_main_v14 (F := Ideal) a b w (ix3 β σ t)
      = Ideal.div (CrossAttn.weight (fun e => b (ix3 β σ e)) (fun t d => a (ix3 β t d)) (fun d e => w (ix2 d e)) t)
          (∑ t' : Fin 2048, CrossAttn.weight (fun e => b (ix3 β σ e)) (fun t d => a (ix3 β t d)) (fun d e => w (ix2 d e)) t') := by
  rw [val_main_v14_apply, val_main_v13_apply, val_main_v12_apply]
  have e1 : idx_main_v12 (idx_main_v13 (ix3 β σ t)) = ix2 β σ := funext fun c => by
    match c with | ⟨0, _⟩ => rfl | ⟨1, _⟩ => rfl
  rw [e1, weightSum_at, weight_at]
  rfl

/-- The reference's result array is `CrossAttn.outR` of the three arguments. -/
theorem result_eq : val_main_v15 (F := Ideal) a b w = CrossAttn.outR a b w := by
  funext i
  obtain ⟨β, σ, δ, rfl⟩ : ∃ (β : Fin 4) (σ : Fin 2048) (δ : Fin 1024), i = ix3 β σ δ := ⟨i 0, i 1, i 2, eq_ix3 i⟩
  rw [val_main_v15_apply]
  unfold CrossAttn.outR CrossAttn.attnR
  refine Finset.sum_congr rfl fun k _ => ?_
  have e1 : lidx_main_v15 (ix3 β σ δ) k = ix3 β σ k := funext fun c => by
    match c with | ⟨0, _⟩ => rfl | ⟨1, _⟩ => rfl | ⟨2, _⟩ => rfl
  have e2 : ridx_main_v15 (ix3 β σ δ) k = ix3 β k δ := funext fun c => by
    match c with | ⟨0, _⟩ => rfl | ⟨1, _⟩ => rfl | ⟨2, _⟩ => rfl
  rw [e1, e2, normWeight_at]

end Cert.ReferenceIdeal.RowValue

end
-- ==== Proof.lean ====
/-
  Cross-attention, a Pallas kernel against its jnp reference, equal at the ideal (extended-real) instance.

  Both programs take keys/values `a` and queries `b`, each [4, 2048, 1024], and weights `Wq` [1024, 1024], and compute for
  every batch β and query row σ:
      q = b[β, σ, :] · Wqᵀ,   s_t = (q · a[β, t, :]) · 2⁻⁵,   p_t = exp (s_t − max_t s_t),   l = Σ_t p_t.
  The kernel (one grid point per batch and block of 256 query rows, the whole key axis resident) stores
      (Σ_t p_t · a[β, t, δ]) / l,
  the reference (softmax, then a product) returns
      Σ_t (p_t / l) · a[β, t, δ].
  Format changes are the identity on extended reals, the matrix products are plain sums, the reductions fold the same
  elements; so each side is one function of the argument arrays (`CrossAttn.outK`, `CrossAttn.outR`: Proof/Spec.lean) —
  the kernel's by reading its stored block at an entry (Proof/KernelOps.lean, Proof/KernelRow.lean) and gluing the 32
  blocks into the array (Proof/Blocks.lean), the reference's by reading its operations one at a time (Proof/RefRow.lean).
  The two functions agree where the inputs are finite (Proof/Law.lean): then every score is a real number, so the row
  maximum is real, every weight is a positive real and l is a positive real; dividing by l is multiplying by the
  nonnegative real 1/l, which distributes over the sum. The precondition says exactly that the inputs are finite
  (Proof/Finite.lean). The frames are the generated ones; nothing was rewritten by the idealization, so `preserves` is trivial.
-/
import proofs.«169724_j70952859730361_2_alg».proof.Defs
import proofs.«169724_j70952859730361_2_alg».proof.Proof.Gen.Kernel
import proofs.«169724_j70952859730361_2_alg».proof.Proof.Gen.Kernel.Skeleton
import proofs.«169724_j70952859730361_2_alg».proof.Proof.Gen.Kernel.Launch
import proofs.«169724_j70952859730361_2_alg».proof.Proof.Gen.Kernel.Points
import proofs.«169724_j70952859730361_2_alg».proof.Proof.Gen.Kernel.Frame
import proofs.«169724_j70952859730361_2_alg».proof.Proof.Gen.KernelIdeal
import proofs.«169724_j70952859730361_2_alg».proof.Proof.Gen.KernelIdeal.Skeleton
import proofs.«169724_j70952859730361_2_alg».proof.Proof.Gen.KernelIdeal.Launch
import proofs.«169724_j70952859730361_2_alg».proof.Proof.Gen.KernelIdeal.Points
import proofs.«169724_j70952859730361_2_alg».proof.Proof.Gen.KernelIdeal.Frame
import proofs.«169724_j70952859730361_2_alg».proof.Proof.Gen.ReferenceIdeal
import proofs.«169724_j70952859730361_2_alg».proof.Proof.Gen.Pre_finite_inputs
import proofs.«169724_j70952859730361_2_alg».proof.Proof.Gen.KernelIdeal.Value
import proofs.«169724_j70952859730361_2_alg».proof.Proof.Gen.ReferenceIdeal.Run
import proofs.«169724_j70952859730361_2_alg».proof.Proof.Gen.ReferenceIdeal.Read
import proofs.«169724_j70952859730361_2_alg».proof.Proof.Spec
import proofs.«169724_j70952859730361_2_alg».proof.Proof.Law
import proofs.«169724_j70952859730361_2_alg».proof.Proof.Finite
import proofs.«169724_j70952859730361_2_alg».proof.Proof.KernelOps
import proofs.«169724_j70952859730361_2_alg».proof.Proof.KernelRow
import proofs.«169724_j70952859730361_2_alg».proof.Proof.Blocks
import proofs.«169724_j70952859730361_2_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference has no kernel: its frame is its run with the result forgotten. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on finite arguments the kernel ends at `outK` of them and the reference at `outR`,
    and the two are one array. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RowValue.result_eq,
    (hagree c).1, (hagree c).2.1, (hagree c).2.2]
  obtain ⟨h0, h1, h2⟩ := Cert.FiniteInputs.real_of_pre _ _ _ (hpre c)
  exact (CrossAttn.outK_eq_outR _ _ _ h0 h1 h2).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
